-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x1024x1024 : Shape := ⟨3, ![64, 1024, 1024]⟩
abbrev S64x768 : Shape := ⟨2, ![64, 768]⟩
abbrev S256x1024 : Shape := ⟨2, ![256, 1024]⟩
abbrev S256 : Shape := ⟨1, ![256]⟩
abbrev S256x768 : Shape := ⟨2, ![256, 768]⟩
abbrev S_ : Shape := ⟨0, ![]⟩

class Facts : Prop where
  bcast_S_S64x1024x1024 : S_.BroadcastsInDim S64x1024x1024 (![] : Fin 0 → Fin S64x1024x1024.rank)
  reducesTo_S64x1024x1024_S_d0_1_2 : S64x1024x1024.ReducesTo [0, 1, 2] S_
  h_S_ : 0 < S_.numel
  bcast_S_S64x768 : S_.BroadcastsInDim S64x768 (![] : Fin 0 → Fin S64x768.rank)
  reducesTo_S64x768_S_d0_1 : S64x768.ReducesTo [0, 1] S_
  bcast_S_S256x1024 : S_.BroadcastsInDim S256x1024 (![] : Fin 0 → Fin S256x1024.rank)
  reducesTo_S256x1024_S_d0_1 : S256x1024.ReducesTo [0, 1] S_
  bcast_S_S256 : S_.BroadcastsInDim S256 (![] : Fin 0 → Fin S256.rank)
  reducesTo_S256_S_d0 : S256.ReducesTo [0] S_
  bcast_S_S256x768 : S_.BroadcastsInDim S256x768 (![] : Fin 0 → Fin S256x768.rank)
  reducesTo_S256x768_S_d0_1 : S256x768.ReducesTo [0, 1] S_

variable [Facts]

def fn_part1 {F : FTy → Type} [FloatOps F] (main_arg4 : FVec F S256x768 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x768 .f32 := Host.absf main_arg4
  let main_cst_6 : FVec F S_ .f32 := constant S_ .f32 0x7F800000#32
  let main_v20 : FVec F S256x768 .f32 := broadcastInDim S256x768 ![] bcast_S_S256x768 main_cst_6
  let main_v21 : IVec S256x768 1 := cmpf .olt main_v19 main_v20
  let main_c_7 : IVec S_ 1 := constantI S_ 1 1#1
  let main_v22 : IVec S_ 1 := (fun x v => Host.reduce IntOp.andi x v reducesTo_S256x768_S_d0_1 h_S_) main_v21 main_c_7
  let main_v23 : IVec S_ 1 := andi main_v18 main_v22
  main_v23

def fn {F : FTy → Type} [FloatOps F] (main_arg0 : FVec F S64x1024x1024 .f32) (main_arg1 : FVec F S64x768 .f32) (main_arg2 : FVec F S256x1024 .f32) (main_arg3 : FVec F S256 .f32) (main_arg4 : FVec F S256x768 .f32) : IVec S_ 1 :=
  let main_v0 : FVec F S64x1024x1024 .f32 := Host.absf main_arg0
  let main_cst : FVec F S_ .f32 := constant S_ .f32 0x7F800000#32
  let main_v1 : FVec F S64x1024x1024 .f32 := broadcastInDim S64x1024x1024 ![] bcast_S_S64x1024x1024 main_cst
  let main_v2 : IVec S64x1024x1024 1 := cmpf .olt main_v0 main_v1
  let main_c : IVec S_ 1 := constantI S_ 1 1#1
  let main_v3 : IVec S_ 1 := (fun x v => Host.reduce IntOp.andi x v reducesTo_S64x1024x1024_S_d0_1_2 h_S_) main_v2 main_c
  let main_v4 : FVec F S64x768 .f32 := Host.absf main_arg1
  let main_cst_0 : FVec F S_ .f32 := constant S_ .f32 0x7F800000#32
  let main_v5 : FVec F S64x768 .f32 := broadcastInDim S64x768 ![] bcast_S_S64x768 main_cst_0
  let main_v6 : IVec S64x768 1 := cmpf .olt main_v4 main_v5
  let main_c_1 : IVec S_ 1 := constantI S_ 1 1#1
  let main_v7 : IVec S_ 1 := (fun x v => Host.reduce IntOp.andi x v reducesTo_S64x768_S_d0_1 h_S_) main_v6 main_c_1
  let main_v8 : IVec S_ 1 := andi main_v3 main_v7
  let main_v9 : FVec F S256x1024 .f32 := Host.absf main_arg2
  let main_cst_2 : FVec F S_ .f32 := constant S_ .f32 0x7F800000#32
  let main_v10 : FVec F S256x1024 .f32 := broadcastInDim S256x1024 ![] bcast_S_S256x1024 main_cst_2
  let main_v11 : IVec S256x1024 1 := cmpf .olt main_v9 main_v10
  let main_c_3 : IVec S_ 1 := constantI S_ 1 1#1
  let main_v12 : IVec S_ 1 := (fun x v => Host.reduce IntOp.andi x v reducesTo_S256x1024_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_v13 main_v16
-- ==== Kernel.lean ====
abbrev S64x1024x1024 : Shape := ⟨3, ![64, 1024, 1024]⟩
abbrev S64x768 : Shape := ⟨2, ![64, 768]⟩
abbrev S256x1024 : Shape := ⟨2, ![256, 1024]⟩
abbrev S256 : Shape := ⟨1, ![256]⟩
abbrev S256x768 : Shape := ⟨2, ![256, 768]⟩
abbrev S1024x256 : Shape := ⟨2, ![1024, 256]⟩
abbrev S768x256 : Shape := ⟨2, ![768, 256]⟩
abbrev S1x256 : Shape := ⟨2, ![1, 256]⟩
abbrev S64x1x768 : Shape := ⟨3, ![64, 1, 768]⟩
abbrev S64x1024x256 : Shape := ⟨3, ![64, 1024, 256]⟩
abbrev S2x1024x1024 : Shape := ⟨3, ![2, 1024, 1024]⟩
abbrev S2x1x768 : Shape := ⟨3, ![2, 1, 768]⟩
abbrev S2x1024x256 : Shape := ⟨3, ![2, 1024, 256]⟩
abbrev S1x1024x1024 : Shape := ⟨3, ![1, 1024, 1024]⟩
abbrev S1024x1024 : Shape := ⟨2, ![1024, 1024]⟩
abbrev S1x1x768 : Shape := ⟨3, ![1, 1, 768]⟩
abbrev S1x768 : Shape := ⟨2, ![1, 768]⟩
abbrev S1024 : Shape := ⟨1, ![1024]⟩
abbrev S1024x1 : Shape := ⟨2, ![1024, 1]⟩
abbrev S1x1024x256 : Shape := ⟨3, ![1, 1024, 256]⟩
abbrev S65536x256 : Shape := ⟨2, ![65536, 256]⟩

abbrev nBuf : Space → Nat
  | .hbm => 13
  | .vmem => 9
  | .smem => 0
  | _ => 0

abbrev bufTy : (tb : Table) → Fin (tcTables nBuf tb) → BufTy
  | .hbm, ⟨0, _⟩ => ⟨S64x1024x1024, .f32⟩
  | .hbm, ⟨1, _⟩ => ⟨S64x768, .f32⟩
  | .hbm, ⟨2, _⟩ => ⟨S256x1024, .f32⟩
  | .hbm, ⟨3, _⟩ => ⟨S256, .f32⟩
  | .hbm, ⟨4, _⟩ => ⟨S256x768, .f32⟩
  | .hbm, ⟨5, _⟩ => ⟨S1024x256, .f32⟩
  | .hbm, ⟨6, _⟩ => ⟨S1024x256, .bf16⟩
  | .hbm, ⟨7, _⟩ => ⟨S768x256, .f32⟩
  | .hbm, ⟨8, _⟩ => ⟨S768x256, .bf16⟩
  | .hbm, ⟨9, _⟩ => ⟨S1x256, .f32⟩
  | .hbm, ⟨10, _⟩ => ⟨S64x1x768, .f32⟩
  | .hbm, ⟨11, _⟩ => ⟨S64x1024x256, .f32⟩
  | .hbm, ⟨12, _⟩ => ⟨S65536x256, .f32⟩
  | .local _ .vmem, ⟨0, _⟩ => ⟨S2x1024x1024, .f32⟩
  | .local _ .vmem, ⟨1, _⟩ => ⟨S2x1024x1024, .f32⟩
  | .local _ .vmem, ⟨2, _⟩ => ⟨S2x1x768, .f32⟩
  | .local _ .vmem, ⟨3, _⟩ => ⟨S2x1x768, .f32⟩
  | .local _ .vmem, ⟨4, _⟩ => ⟨S1024x256, .bf16⟩
  | .local _ .vmem, ⟨5, _⟩ => ⟨S1x256, .f32⟩
  | .local _ .vmem, ⟨6, _⟩ => ⟨S768x256, .bf16⟩
  | .local _ .vmem, ⟨7, _⟩ => ⟨S2x1024x256, .f32⟩
  | .local _ .vmem, ⟨8, _⟩ => ⟨S2x1024x256, .f32⟩
  | _, _ => ⟨S64x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x1x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S768x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2x1024x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  transposes_S256x1024_S1024x256_1_0 : S256x1024.Transposes [1, 0] S1024x256
  bitsLt_bf16_f32 : FTy.bits .bf16 < FTy.bits .f32
  transposes_S256x768_S768x256_1_0 : S256x768.Transposes [1, 0] S768x256
  shapeCasts_S256_S1x256 : S256.ShapeCasts S1x256
  shapeCasts_S64x768_S64x1x768 : S64x768.ShapeCasts S64x1x768
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S768x256_S768x256_0_0 : ∀ a, (![0, 0] : Fin 2 → Nat) a + S768x256.size a ≤ S768x256.size a
  h_S768x256 : 0 < S768x256.numel
  shapeCasts_S768x256_S768x256 : S768x256.ShapeCasts S768x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  inb_S2x1024x1024_S1x1024x1024_0_0_0 : ∀ a, (![0, 0, 0] : Fin 3 → Nat) a + S1x1024x1024.size a ≤ S2x1024x1024.size a
  h_S1x1024x1024 : 0 < S1x1024x1024.numel
  shapeCasts_S1x1024x1024_S1024x1024 : S1x1024x1024.ShapeCasts S1024x1024
  broadcasts_S1x256_S1024x256 : S1x256.Broadcasts S1024x256
  inb_S2x1x768_S1x1x768_0_0_0 : ∀ a, (![0, 0, 0] : Fin 3 → Nat) a + S1x1x768.size a ≤ S2x1x768.size a
  h_S1x1x768 : 0 < S1x1x768.numel
  shapeCasts_S1x1x768_S1x768 : S1x1x768.ShapeCasts S1x768
  reduces_S1024x256_S1024 : S1024x256.Reduces [1] S1024
  shapeCasts_S1024_S1024x1 : S1024.ShapeCasts S1024x1
  broadcasts_S1024x1_S1024x256 : S1024x1.Broadcasts S1024x256
  inb_S2x1024x256_S1x1024x256_0_0_0 : ∀ a, (![0, 0, 0] : Fin 3 → Nat) a + S1x1024x256.size a ≤ S2x1024x256.size a
  h_S1x1024x256 : 0 < S1x1024x256.numel
  shapeCasts_S1x1024x256_S1024x256 : S1x1024x256.ShapeCasts S1024x256
  shapeCasts_S1024x256_S1x1024x256 : S1024x256.ShapeCasts S1x1024x256
  inb_S2x1024x1024_S1x1024x1024_1_0_0 : ∀ a, (![1, 0, 0] : Fin 3 → Nat) a + S1x1024x1024.size a ≤ S2x1024x1024.size a
  inb_S2x1x768_S1x1x768_1_0_0 : ∀ a, (![1, 0, 0] : Fin 3 → Nat) a + S1x1x768.size a ≤ S2x1x768.size a
  inb_S2x1024x256_S1x1024x256_1_0_0 : ∀ a, (![1, 0, 0] : Fin 3 → Nat) a + S1x1024x256.size a ≤ S2x1024x256.size a
  shapeCasts_S64x1024x256_S65536x256 : S64x1024x256.ShapeCasts S65536x256
  dot_S1024x1024_S1024x256_S1024x256_1_0_0_1_n_n_wf : DotDims.WF S1024x1024 S1024x256 S1024x256 [1] [0] [0] [1] [] []
  dot_S1x768_S768x256_S1x256_1_0_0_1_n_n_wf : DotDims.WF S1x768 S768x256 S1x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x1024x1024.size a ≤ S64x1024x1024.size a
  hwx0_0 : ∀ i : grid0.Coords, EltTy.bits .f32 = 32 ∨ (Rect.block (s := S64x1024x1024) S2x1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2x1x768.size a ≤ S64x1x768.size a
  hwx0_1 : ∀ i : grid0.Coords, EltTy.bits .f32 = 32 ∨ (Rect.block (s := S64x1x768) S2x1x768.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x256.size a ≤ S1024x256.size a
  hwx0_2 : ∀ i : grid0.Coords, EltTy.bits .bf16 = 32 ∨ (Rect.block (s := S1024x256) S1024x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S768x256.size a ≤ S768x256.size a
  hwx0_4 : ∀ i : grid0.Coords, EltTy.bits .bf16 = 32 ∨ (Rect.block (s := S768x256) S768x256.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2x1024x256.size a ≤ S64x1024x256.size a
  hwx0_5 : ∀ i : grid0.Coords, EltTy.bits .f32 = 32 ∨ (Rect.block (s := S64x1024x256) S2x1024x256.size (cc0_transform_5 i) (hinb0_5 i)).WholeWords (EltTy.packing .f32)

variable [Facts₀]

def dot_S1024x1024_S1024x256_S1024x256_1_0_0_1_n_n : DotDims S1024x1024 S1024x256 S1024x256 where
  lhsContracting := [1]
  rhsContracting := [0]
  lhsNonContracting := [0]
  rhsNonContracting := [1]
  lhsBatch := []
  rhsBatch := []
  wf := dot_S1024x1024_S1024x256_S1024x256_1_0_0_1_n_n_wf
def dot_S1x768_S768x256_S1x256_1_0_0_1_n_n : DotDims S1x768 S768x256 S1x256 where
  lhsContracting := [1]
  rhsContracting := [0]
  lhsNonContracting := [0]
  rhsNonContracting := [1]
  lhsBatch := []
  rhsBatch := []
  wf := dot_S1x768_S768x256_S1x256_1_0_0_1_n_n_wf

abbrev win0_0 : Pipeline.Window sig grid0 :=
  Pipeline.Window.ofSpec (Memref.whole main_arg0) S2x1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S2x1x768.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1024x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S768x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S2x1024x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S64x1024x1024 : Shape := ⟨3, ![64, 1024, 1024]⟩
abbrev S64x768 : Shape := ⟨2, ![64, 768]⟩
abbrev S256x1024 : Shape := ⟨2, ![256, 1024]⟩
abbrev S256 : Shape := ⟨1, ![256]⟩
abbrev S256x768 : Shape := ⟨2, ![256, 768]⟩
abbrev S64x256 : Shape := ⟨2, ![64, 256]⟩
abbrev S64x1024x256 : Shape := ⟨3, ![64, 1024, 256]⟩
abbrev S1x1x256 : Shape := ⟨3, ![1, 1, 256]⟩
abbrev S64x1x256 : Shape := ⟨3, ![64, 1, 256]⟩
abbrev S_ : Shape := ⟨0, ![]⟩
abbrev S64x1024 : Shape := ⟨2, ![64, 1024]⟩
abbrev S64x1024x1 : Shape := ⟨3, ![64, 1024, 1]⟩
abbrev S65536x256 : Shape := ⟨2, ![65536, 256]⟩

abbrev nBuf : Space → Nat
  | .hbm => 29
  | .vmem => 0
  | .smem => 0
  | _ => 0

abbrev bufTy : (tb : Table) → Fin (tcTables nBuf tb) → BufTy
  | .hbm, ⟨0, _⟩ => ⟨S64x1024x1024, .f32⟩
  | .hbm, ⟨1, _⟩ => ⟨S64x768, .f32⟩
  | .hbm, ⟨2, _⟩ => ⟨S256x1024, .f32⟩
  | .hbm, ⟨3, _⟩ => ⟨S256, .f32⟩
  | .hbm, ⟨4, _⟩ => ⟨S256x768, .f32⟩
  | .hbm, ⟨5, _⟩ => ⟨S64x256, .f32⟩
  | .hbm, ⟨6, _⟩ => ⟨S64x1024x256, .f32⟩
  | .hbm, ⟨7, _⟩ => ⟨S1x1x256, .f32⟩
  | .hbm, ⟨8, _⟩ => ⟨S64x1024x256, .f32⟩
  | .hbm, ⟨9, _⟩ => ⟨S64x1024x256, .f32⟩
  | .hbm, ⟨10, _⟩ => ⟨S64x1x256, .f32⟩
  | .hbm, ⟨11, _⟩ => ⟨S64x1024x256, .f32⟩
  | .hbm, ⟨12, _⟩ => ⟨S64x1024x256, .f32⟩
  | .hbm, ⟨13, _⟩ => ⟨S64x1024x256, .f32⟩
  | .hbm, ⟨14, _⟩ => ⟨S_, .f32⟩
  | .hbm, ⟨15, _⟩ => ⟨S64x1024, .f32⟩
  | .hbm, ⟨16, _⟩ => ⟨S_, .f32⟩
  | .hbm, ⟨17, _⟩ => ⟨S64x1024, .f32⟩
  | .hbm, ⟨18, _⟩ => ⟨S64x1024, .f32⟩
  | .hbm, ⟨19, _⟩ => ⟨S64x1024x1, .f32⟩
  | .hbm, ⟨20, _⟩ => ⟨S64x1024x256, .f32⟩
  | .hbm, ⟨21, _⟩ => ⟨S64x1024x256, .f32⟩
  | .hbm, ⟨22, _⟩ => ⟨S64x1024x256, .f32⟩
  | .hbm, ⟨23, _⟩ => ⟨S_, .f32⟩
  | .hbm, ⟨24, _⟩ => ⟨S64x1024, .f32⟩
  | .hbm, ⟨25, _⟩ => ⟨S64x1024x1, .f32⟩
  | .hbm, ⟨26, _⟩ => ⟨S64x1024x256, .f32⟩
  | .hbm, ⟨27, _⟩ => ⟨S64x1024x256, .f32⟩
  | .hbm, ⟨28, _⟩ => ⟨S65536x256, .f32⟩
  | _, _ => ⟨S64x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_1 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩

abbrev nD : Nat := 1
abbrev τ : Topo := Topo.v7x

variable {F : FTy → Type} [FloatOps F]

class Facts₀ : Prop where
  bcast_S256_S1x1x256_2 : S256.BroadcastsInDim S1x1x256 (![2] : Fin 1 → Fin S1x1x256.rank)
  bcast_S1x1x256_S64x1024x256_0_1_2 : S1x1x256.BroadcastsInDim S64x1024x256 (![0, 1, 2] : Fin 3 → Fin S64x1024x256.rank)
  bcast_S64x256_S64x1x256_0_2 : S64x256.BroadcastsInDim S64x1x256 (![0, 2] : Fin 2 → Fin S64x1x256.rank)
  bcast_S64x1x256_S64x1024x256_0_1_2 : S64x1x256.BroadcastsInDim S64x1024x256 (![0, 1, 2] : Fin 3 → Fin S64x1024x256.rank)
  reducesTo_S64x1024x256_S64x1024_d2 : S64x1024x256.ReducesTo [2] S64x1024
  h_S_ : 0 < S_.numel
  bcast_S_S64x1024 : S_.BroadcastsInDim S64x1024 (![] : Fin 0 → Fin S64x1024.rank)
  bcast_S64x1024_S64x1024x1_0_1 : S64x1024.BroadcastsInDim S64x1024x1 (![0, 1] : Fin 2 → Fin S64x1024x1.rank)
  bcast_S64x1024x1_S64x1024x256_0_1_2 : S64x1024x1.BroadcastsInDim S64x1024x256 (![0, 1, 2] : Fin 3 → Fin S64x1024x256.rank)
  shapeCasts_S64x1024x256_S65536x256 : S64x1024x256.ShapeCasts S65536x256
  dot_S64x768_S256x768_S64x256_1_1_0_0_n_n_wf : DotDims.WF S64x768 S256x768 S64x256 [1] [1] [0] [0] [] []
  dot_S64x1024x1024_S256x1024_S64x1024x256_2_1_01_0_n_n_wf : DotDims.WF S64x1024x1024 S256x1024 S64x1024x256 [2] [1] [0, 1] [0] [] []

variable [Facts₀]

def dot_S64x768_S256x768_S64x256_1_1_0_0_n_n : DotDims S64x768 S256x768 S64x256 where
  lhsContracting := [1]
  rhsContracting := [1]
  lhsNonContracting := [0]
  rhsNonContracting := [0]
  lhsBatch := []
  rhsBatch := []
  wf := dot_S64x768_S256x768_S64x256_1_1_0_0_n_n_wf
def dot_S64x1024x1024_S256x1024_S64x1024x256_2_1_01_0_n_n : DotDims S64x1024x1024 S256x1024 S64x1024x256 where
  lhsContracting := [2]
  rhsContracting := [1]
  lhsNonContracting := [0, 1]
  rhsNonContracting := [0]
  lhsBatch := []
  rhsBatch := []
  wf := dot_S64x1024x1024_S256x1024_S64x1024x256_2_1_01_0_n_n_wf

class Facts : Prop extends Facts₀ where

variable [Facts]
-- ==== Proof.LibPlainDot.lean ====
/-
  A plain matrix product, M×K by K×N, at the ideal values, read at an index as the sum over the contracted coordinate of
  the products of the operands' entries — for the vector unit's `tpu.matmul` into the zero accumulator and for the host's
  `dot_general` alike. The contraction has one axis, of extent K: its index is that one coordinate (`contrE`), the left
  operand's index at (r, c) and k is (r, k), the right operand's is (k, c).
-/
import Idealize.ShloMosaic.PureOps.Ideal.Laws
import Idealize.ShloMosaic.Lib.ValueIdx

noncomputable section

open scoped BigOperators

namespace Idealize.ShloMosaic.PlainDot

open Idealize.ShloMosaic Idealize.ShloMosaic.ValueIdx

variable {M K N : Nat}

/-- The one-axis contraction index of a plain product is its coordinate. -/
def contrE (M K N : Nat) : (DotDims.plain M K N).contr.Idx ≃ Fin K :=
  contrEquiv1 (DotDims.plain M K N) K rfl rfl

theorem contrE_symm_val (k : Fin K) :
    ((contrE M K N).symm k ⟨0, by have h : (DotDims.plain M K N).contr.rank = 1 := rfl; omega⟩ : ℕ) = k.val :=
  contrEquiv1_symm_val (DotDims.plain M K N) K rfl rfl k

/-- The left operand is read at (row of the result, contracted coordinate). -/
theorem lhsIdx_eq (r : Fin M) (c : Fin N) (k : Fin K) :
    (DotDims.plain M K N).lhsIdx (ix2 r c) ((contrE M K N).symm k) = ix2 r k := by
  funext a
  apply Fin.ext
  match a with
  | ⟨0, _⟩ => rfl
  | ⟨1, _⟩ => exact ((DotDims.plain M K N).lhsIdx_val_of_single (cl := 1) rfl (ix2 r c) _).trans (contrE_symm_val k)

/-- The right operand is read at (contracted coordinate, column of the result). -/
theorem rhsIdx_eq (r : Fin M) (c : Fin N) (k : Fin K) :
    (DotDims.plain M K N).rhsIdx (ix2 r c) ((contrE M K N).symm k) = ix2 k c := by
  funext a
  apply Fin.ext
  match a with
  | ⟨0, _⟩ => exact ((DotDims.plain M K N).rhsIdx_val_of_single (cr := 0) rfl (ix2 r c) _).trans (contrE_symm_val k)
  | ⟨1, _⟩ => rfl

/-- The sum over the contraction index of a plain product, re-indexed by the contracted coordinate. -/
theorem sum_contr (f : (⟨2, ![M, K]⟩ : Shape).Idx → EReal) (g : (⟨2, ![K, N]⟩ : Shape).Idx → EReal) (r : Fin M) (c : Fin N) :
    (∑ k : (DotDims.plain M K N).contr.Idx, f ((DotDims.plain M K N).lhsIdx (ix2 r c) k) * g ((DotDims.plain M K N).rhsIdx (ix2 r c) k))
      = ∑ k : Fin K, f (ix2 r k) * g (ix2 k c) := by
  rw [← Equiv.sum_comp (contrE M K N).symm]
  exact Finset.sum_congr rfl fun k _ => by rw [lhsIdx_eq, rhsIdx_eq]

/-- `tpu.matmul` into the zero accumulator, at (r, c). -/
theorem matmul_zero_apply {φ₁ φ₂ : FTy} (prec : Option ContractPrecision)
    (x : FVec Ideal ⟨2, ![M, K]⟩ φ₁) (w : FVec Ideal ⟨2, ![K, N]⟩ φ₂) (r : Fin M) (c : Fin N) :
    FloatOps.matmul (DotDims.plain M K N) prec x w (constant (⟨2, ![M, N]⟩ : Shape) .f32 0x00000000#32) (ix2 r c)
      = ∑ k : Fin K, x (ix2 r k) * w (ix2 k c) :=
  (Ideal.matmul_constant_zero_apply (DotDims.plain M K N) prec x w (ix2 r c)).trans (sum_contr x w r c)

/-- The host's `dot_general`, at (r, c). -/
theorem dotGeneral_apply {φ₁ φ₂ : FTy} (prec : Option ContractPrecision) (sched : HostSchedule)
    (x : FVec Ideal ⟨2, ![M, K]⟩ φ₁) (w : FVec Ideal ⟨2, ![K, N]⟩ φ₂) (r : Fin M) (c : Fin N) :
    FloatOps.dotGeneral (DotDims.plain M K N) prec sched x w (ix2 r c) = ∑ k : Fin K, x (ix2 r k) * w (ix2 k c) :=
  (Ideal.dotGeneral_apply (DotDims.plain M K N) prec sched x w (ix2 r c)).trans (sum_contr x w r c)

end Idealize.ShloMosaic.PlainDot

end
-- ==== Proof.BodyValue.lean ====
/-
  What the kernel body computes for ONE sample of its block, read entry by entry on the extended reals.

  A grid point handles two samples; each is treated the same way. With X the sample's [1024,1024] slab, Wt the
  [1024,256] transposed channel weights, B the [1,256] bias row, Y the sample's [1,768] row and Wy the [768,256]
  transposed weights, the body forms the logits

      L (n, k) = (Σ c, X (n, c) · Wt (c, k) + B (0, k)) + Σ q, Y (0, q) · Wy (q, k),

  (each matrix product is accumulated into zero, so it is the plain sum; the bias row and the sample's projected row are
  repeated down the 1024 rows), takes z = tanh L, and stores, as a [1,1024,256] block,

      exp (z (n, k)) / Σ j, exp (z (n, j)):

  the row sum over the 256 lanes is repeated along the row before the division. A change of float format is the
  identity on the extended reals, so the casts to the narrower format do not appear.
-/
import proofs.«135833_j47682726920245_2_alg».proof.Proof.Gen.KernelIdeal.Skeleton
import Idealize.ShloMosaic.Lib.ValueIdx
import Idealize.ShloMosaic.Lib.Pipeline.Value
import Idealize.ShloMosaic.PureOps.Ideal.Laws
import proofs.«135833_j47682726920245_2_alg».proof.Proof.LibPlainDot

noncomputable section

open scoped BigOperators

namespace Cert.KernelIdeal.BodyValue

open Cert.KernelIdeal Cert.KernelIdeal.Gen Idealize.ShloMosaic Idealize.ShloMosaic.ValueIdx

/-! ## Layout steps, each read at an index -/

/-- A [1024,256] matrix stored as a [1,1024,256] block reads, at (0, n, k), the matrix at (n, k). -/
theorem block_of_matrix_apply {α : Type} (V : S1024x256.Idx → α) (u : Fin 1) (n : Fin 1024) (k : Fin 256) :
    shapeCast S1x1024x256 V shapeCasts_S1024x256_S1x1024x256 (ix3 u n k) = V (ix2 n k) := by
  refine shapeCast_apply V _ (ix3 u n k) (ix2 n k) ?_
  rw [Shape.rowMajor_val_two, Shape.rowMajor_val_three]
  show n.val * 256 + k.val = (u.val * 1024 + n.val) * 256 + k.val
  have := u.isLt; omega

/-- A [1,1024,1024] slab viewed as a [1024,1024] matrix reads, at (n, c), the slab at (0, n, c). -/
theorem matrix_of_slab_apply {α : Type} (V : S1x1024x1024.Idx → α) (n c : Fin 1024) :
    shapeCast S1024x1024 V shapeCasts_S1x1024x1024_S1024x1024 (ix2 n c) = V (ix3 0 n c) := by
  refine shapeCast_apply V _ (ix2 n c) (ix3 0 n c) ?_
  rw [Shape.rowMajor_val_two, Shape.rowMajor_val_three]
  show ((0 : Fin 1).val * 1024 + n.val) * 1024 + c.val = n.val * 1024 + c.val
  simp

/-- A [1,1,768] row viewed as a [1,768] matrix reads, at (0, q), the row at (0, 0, q). -/
theorem row_of_slab_apply {α : Type} (V : S1x1x768.Idx → α) (u : Fin 1) (q : Fin 768) :
    shapeCast S1x768 V shapeCasts_S1x1x768_S1x768 (ix2 u q) = V (ix3 0 0 q) := by
  refine shapeCast_apply V _ (ix2 u q) (ix3 0 0 q) ?_
  rw [Shape.rowMajor_val_two, Shape.rowMajor_val_three]
  show ((0 : Fin 1).val * 1 + (0 : Fin 1).val) * 768 + q.val = u.val * 768 + q.val
  have h1 : u.val = 0 := by have := u.isLt; omega
  rw [h1]; simp

/-- A length-1024 vector viewed as a [1024,1] column reads, at (n, 0), the vector at n. -/
theorem column_of_vector_apply {α : Type} (V : S1024.Idx → α) (n : Fin 1024) (u : Fin 1) :
    shapeCast S1024x1 V shapeCasts_S1024_S1024x1 (ix2 n u) = V (ix1 n) := by
  refine shapeCast_apply V _ (ix2 n u) (ix1 n) ?_
  rw [Shape.rowMajor_val_two, Shape.rowMajor_val_one]
  show n.val = n.val * 1 + u.val
  have := u.isLt; omega

/-- A [1024,1] column repeated along 256 lanes reads, at (n, k), the column at (n, 0). -/
theorem column_along_lanes_apply {α : Type} (V : S1024x1.Idx → α) (n : Fin 1024) (k : Fin 256) :
    broadcastTo S1024x256 V broadcasts_S1024x1_S1024x256 (ix2 n k) = V (ix2 n 0) := by
  refine broadcastTo_apply V _ (ix2 n k) (ix2 n 0) fun a => ?_
  match a with
  | ⟨0, _⟩ => show n.val = if (1024 : Nat) = 1 then 0 else n.val; rw [if_neg (by decide)]
  | ⟨1, _⟩ => show (0 : Fin 1).val = if (1 : Nat) = 1 then 0 else k.val; rw [if_pos rfl]; rfl

/-- A [1,256] row repeated down 1024 rows reads, at (n, k), the row at (0, k). -/
theorem row_down_rows_apply {α : Type} (V : S1x256.Idx → α) (n : Fin 1024) (k : Fin 256) :
    broadcastTo S1024x256 V broadcasts_S1x256_S1024x256 (ix2 n k) = V (ix2 0 k) := by
  refine broadcastTo_apply V _ (ix2 n k) (ix2 0 k) fun a => ?_
  match a with
  | ⟨0, _⟩ => show (0 : Fin 1).val = if (1 : Nat) = 1 then 0 else n.val; rw [if_pos rfl]; rfl
  | ⟨1, _⟩ => show k.val = if (256 : Nat) = 1 then 0 else k.val; rw [if_neg (by decide)]

/-! ## The two matrix products -/

/-- The channel product's dimension record is the plain 1024×1024 by 1024×256 one. -/
theorem channel_dims : dot_S1024x1024_S1024x256_S1024x256_1_0_0_1_n_n = DotDims.plain 1024 1024 256 := rfl

/-- The row product's dimension record is the plain 1×768 by 768×256 one. -/
theorem row_dims : dot_S1x768_S768x256_S1x256_1_0_0_1_n_n = DotDims.plain 1 768 256 := rfl

/-- The channel product into zero, at (n, k): the sum over the 1024 channels. -/
theorem channel_product_apply (X : FVec Ideal S1024x1024 .bf16) (Wt : FVec Ideal S1024x256 .bf16) (n : Fin 1024) (k : Fin 256) :
    matmul dot_S1024x1024_S1024x256_S1024x256_1_0_0_1_n_n none X Wt (constant (F := Ideal) S1024x256 .f32 0x00000000#32) (ix2 n k)
      = ∑ c : Fin 1024, X (ix2 n c) * Wt (ix2 c k) := by
  rw [channel_dims]
  exact PlainDot.matmul_zero_apply none X Wt n k

/-- The row product into zero, at (0, k): the sum over the 768 features. -/
theorem row_product_apply (Y : FVec Ideal S1x768 .bf16) (Wy : FVec Ideal S768x256 .bf16) (u : Fin 1) (k : Fin 256) :
    matmul dot_S1x768_S768x256_S1x256_1_0_0_1_n_n none Y Wy (constant (F := Ideal) S1x256 .f32 0x00000000#32) (ix2 u k)
      = ∑ q : Fin 768, Y (ix2 u q) * Wy (ix2 q k) := by
  rw [row_dims]
  exact PlainDot.matmul_zero_apply none Y Wy u k

/-! ## The lane sum -/

/-- The reduced row index n with lane j put back is (n, j). -/
theorem lift_lane (n : Fin 1024) (j : Fin (S1024x256.size 1)) :
    reduces_S1024x256_S1024.lift (ix1 n) j = ix2 n (⟨j.val, j.isLt⟩ : Fin 256) := by
  funext c; apply Fin.ext
  fin_cases c <;> rfl

/-- The sum over the 256 lanes of a [1024,256] matrix, from zero, at row n. -/
theorem lane_sum_apply (V : FVec Ideal S1024x256 .f32) (n : Fin 1024) :
    multiReduction .add [1] S1024 V 0x00000000#32 reduces_S1024x256_S1024 (.inl rfl) rfl (ix1 n) = ∑ j : Fin 256, V (ix2 n j) := by
  refine (Ideal.multiReduction_add_single V 0x00000000#32 reduces_S1024x256_S1024 (.inl rfl) rfl (ix1 n)).trans ?_
  exact Finset.sum_congr rfl fun j _ => congrArg V (lift_lane n j)

/-! ## One sample -/

/-- The logits of one sample, as the body forms them. -/
def logits (X : FVec Ideal S1024x1024 .bf16) (Wt : FVec Ideal S1024x256 .bf16) (B : FVec Ideal S1x256 .f32)
    (Y : FVec Ideal S1x768 .bf16) (Wy : FVec Ideal S768x256 .bf16) : FVec Ideal S1024x256 .f32 :=
  addf (addf (matmul dot_S1024x1024_S1024x256_S1024x256_1_0_0_1_n_n none X Wt (constant (F := Ideal) S1024x256 .f32 0x00000000#32))
      (broadcastTo S1024x256 B broadcasts_S1x256_S1024x256))
    (broadcastTo S1024x256 (matmul dot_S1x768_S768x256_S1x256_1_0_0_1_n_n none Y Wy (constant (F := Ideal) S1x256 .f32 0x00000000#32)) broadcasts_S1x256_S1024x256)

/-- The logits at (n, k). -/
theorem logits_apply (X : FVec Ideal S1024x1024 .bf16) (Wt : FVec Ideal S1024x256 .bf16) (B : FVec Ideal S1x256 .f32)
    (Y : FVec Ideal S1x768 .bf16) (Wy : FVec Ideal S768x256 .bf16) (n : Fin 1024) (k : Fin 256) :
    logits X Wt B Y Wy (ix2 n k)
      = (∑ c : Fin 1024, X (ix2 n c) * Wt (ix2 c k) + B (ix2 0 k)) + ∑ q : Fin 768, Y (ix2 0 q) * Wy (ix2 q k) := by
  unfold logits
  rw [addf_apply, addf_apply, channel_product_apply, row_down_rows_apply, row_down_rows_apply, row_product_apply]

/-- The softmax of the hyperbolic tangent of a [1024,256] matrix along its lanes, without subtracting the row maximum,
    stored as a [1,1024,256] block: what the body does with the logits. -/
def softmaxBlock (L : FVec Ideal S1024x256 .f32) : FVec Ideal S1x1024x256 .f32 :=
  shapeCast S1x1024x256
    (divf (exp (tanh L))
      (broadcastTo S1024x256
        (shapeCast S1024x1 (multiReduction .add [1] S1024 (exp (tanh L)) 0x00000000#32 reduces_S1024x256_S1024 (.inl rfl) rfl)
          shapeCasts_S1024_S1024x1)
        broadcasts_S1024x1_S1024x256))
    shapeCasts_S1024x256_S1x1024x256

/-- That block at (0, n, k). -/
theorem softmaxBlock_apply (L : FVec Ideal S1024x256 .f32) (u : Fin 1) (n : Fin 1024) (k : Fin 256) :
    softmaxBlock L (ix3 u n k)
      = Ideal.div (Ideal.exp (Ideal.tanh (L (ix2 n k)))) (∑ j : Fin 256, Ideal.exp (Ideal.tanh (L (ix2 n j)))) := by
  unfold softmaxBlock
  rw [block_of_matrix_apply, divf_apply, column_along_lanes_apply, column_of_vector_apply]
  exact congrArg (Ideal.div _) (lane_sum_apply (exp (tanh L)) n)

/-! ## The two stores' payloads are that block of those logits -/

/-- The first store's payload (sample 0 of the point's block). -/
theorem first_payload_eq (v0 : Vec Ideal S1024x256 .bf16) (v2 : Vec Ideal S768x256 .bf16) (v4 : Vec Ideal S1x256 .f32)
    (v6 : Vec Ideal S1x1024x1024 .f32) (v12 : Vec Ideal S1x1x768 .f32) :
    k0_pay5 (F := Ideal) v0 v2 v4 v6 v12
      = softmaxBlock (logits (truncf .bf16 (shapeCast S1024x1024 v6 shapeCasts_S1x1024x1024_S1024x1024) bitsLt_bf16_f32)
          (shapeCast S1024x256 v0 shapeCasts_S1024x256_S1024x256) (shapeCast S1x256 v4 shapeCasts_S1x256_S1x256)
          (truncf .bf16 (shapeCast S1x768 v12 shapeCasts_S1x1x768_S1x768) bitsLt_bf16_f32)
          (shapeCast S768x256 v2 shapeCasts_S768x256_S768x256)) := rfl

/-- The second store's payload (sample 1 of the point's block). -/
theorem second_payload_eq (v0 : Vec Ideal S1024x256 .bf16) (v2 : Vec Ideal S768x256 .bf16) (v4 : Vec Ideal S1x256 .f32)
    (v27 : Vec Ideal S1x1024x1024 .f32) (v33 : Vec Ideal S1x1x768 .f32) :
    k0_pay1 (F := Ideal) (k0_pay3 v2) (k0_pay6 v0 v4 v27) v33
      = softmaxBlock (logits (truncf .bf16 (shapeCast S1024x1024 v27 shapeCasts_S1x1024x1024_S1024x1024) bitsLt_bf16_f32)
          (shapeCast S1024x256 v0 shapeCasts_S1024x256_S1024x256) (shapeCast S1x256 v4 shapeCasts_S1x256_S1x256)
          (truncf .bf16 (shapeCast S1x768 v33 shapeCasts_S1x1x768_S1x768) bitsLt_bf16_f32)
          (shapeCast S768x256 v2 shapeCasts_S768x256_S768x256)) := rfl

/-- One sample's stored value at (0, n, k), from the sample's slab xs, its row ys, and the three resident operands. -/
theorem sample_apply (xs : Vec Ideal S1x1024x1024 .f32) (ys : Vec Ideal S1x1x768 .f32) (w : Vec Ideal S1024x256 .bf16)
    (b : Vec Ideal S1x256 .f32) (wy : Vec Ideal S768x256 .bf16) (u : Fin 1) (n : Fin 1024) (k : Fin 256) :
    softmaxBlock (logits (truncf .bf16 (shapeCast S1024x1024 xs shapeCasts_S1x1024x1024_S1024x1024) bitsLt_bf16_f32)
          (shapeCast S1024x256 w shapeCasts_S1024x256_S1024x256) (shapeCast S1x256 b shapeCasts_S1x256_S1x256)
          (truncf .bf16 (shapeCast S1x768 ys shapeCasts_S1x1x768_S1x768) bitsLt_bf16_f32)
          (shapeCast S768x256 wy shapeCasts_S768x256_S768x256)) (ix3 u n k)
      = Ideal.div
          (Ideal.exp (Ideal.tanh ((∑ c : Fin 1024, xs (ix3 0 n c) * w (ix2 c k) + b (ix2 0 k)) + ∑ q : Fin 768, ys (ix3 0 0 q) * wy (ix2 q k))))
          (∑ j : Fin 256, Ideal.exp (Ideal.tanh ((∑ c : Fin 1024, xs (ix3 0 n c) * w (ix2 c j) + b (ix2 0 j)) + ∑ q : Fin 768, ys (ix3 0 0 q) * wy (ix2 q j)))) := by
  rw [softmaxBlock_apply]
  simp only [logits_apply, truncf_apply, matrix_of_slab_apply, row_of_slab_apply, shapeCast_self]

end Cert.KernelIdeal.BodyValue

end
-- ==== Proof.LibCanonUnit.lean ====
/-
  The canonical contents of a list of writes, read one piece at a time when the newest piece is a unit-stride
  rectangle.

  `View.canon (p :: L)` is `p`'s payload on `p`'s rectangle and `View.canon L` elsewhere. For a unit-stride rectangle
  with offsets `off` and extents `size`, an index `y` lies in the rectangle exactly when `off a ≤ y a < off a + size a` on
  every axis, and then its position inside the rectangle is `y a - off a`. The two lemmas below say this with the
  position given by the caller, so that no membership statement about the rectangle is ever formed.
-/
import Idealize.ShloMosaic.Lib.Pipeline.FrameBody

namespace Idealize.ShloMosaic.View

variable {s : Shape} {e : EltTy} {Val : EltTy → Type}

/-- An index at position `x` of the newest piece's unit-stride rectangle (on every axis the index is the offset plus
    `x`) reads that piece's payload at `x`, whatever the earlier pieces are. -/
theorem canon_cons_unit_of_pos [∀ e, Nonempty (Val e)] {off size : Fin s.rank → ℕ} (inb : ∀ a, off a + size a ≤ s.size a)
    (w : (Rect.unit off size inb).shape.Idx → Val e) (L : List (Piece Val s e)) (y : s.Idx)
    (x : (Rect.unit off size inb).shape.Idx) (hx : ∀ a, (y a).val = off a + (x a).val) :
    canon ((⟨Rect.unit off size inb, w⟩ : Piece Val s e) :: L) y = w x := by
  have hy : (Rect.unit off size inb).emb x = y := funext fun a => Fin.ext (by
    show off a + 1 * (x a).val = (y a).val
    rw [hx a, Nat.one_mul])
  rw [← hy]
  exact canon_cons_emb (Rect.unit off size inb) w L x

/-- An index that on some axis `a` lies below the newest piece's unit-stride rectangle, or at or past its end, reads
    what the earlier pieces left. -/
theorem canon_cons_unit_of_off [∀ e, Nonempty (Val e)] {off size : Fin s.rank → ℕ} (inb : ∀ a, off a + size a ≤ s.size a)
    (w : (Rect.unit off size inb).shape.Idx → Val e) (L : List (Piece Val s e)) (y : s.Idx)
    (a : Fin s.rank) (ha : (y a).val < off a ∨ off a + size a ≤ (y a).val) :
    canon ((⟨Rect.unit off size inb, w⟩ : Piece Val s e) :: L) y = canon L y := by
  refine canon_cons_of_not_mem _ L ?_
  show y ∉ (Rect.unit off size inb).set
  rw [Rect.mem_set_unit]
  intro hall
  have := hall a
  omega

end Idealize.ShloMosaic.View
-- ==== Proof.BlockValue.lean ====
/-
  What a grid point leaves in the output window's [2,1024,256] block, entry by entry, from the point's input blocks.

  The body stores the block in two pieces: rows [0,1) of the leading axis (sample 0 of the point) first, rows [1,2)
  (sample 1) last. An entry (bb, n, k) is therefore the second piece at (0, n, k) when bb = 1 and the first piece at
  (0, n, k) when bb = 0; each piece is one sample's softmax (BodyValue), computed from row bb of the point's x block and
  row bb of its y block, and from the three operands every point sees whole.
-/
import proofs.«135833_j47682726920245_2_alg».proof.Proof.Gen.KernelIdeal.Frame
import proofs.«135833_j47682726920245_2_alg».proof.Proof.BodyValue
import proofs.«135833_j47682726920245_2_alg».proof.Proof.LibCanonUnit

noncomputable section

open scoped BigOperators

namespace Cert.KernelIdeal.BlockValue

open Cert.KernelIdeal Cert.KernelIdeal.Gen Idealize.ShloMosaic Idealize.ShloMosaic.ValueIdx

/-- A load through a unit-stride rectangle reads, at position x, the contents at offset + x. -/
theorem ld_unit_apply {S : Shape} {α : Type} (X : S.Idx → α) {off size : Fin S.rank → ℕ} (inb : ∀ a, off a + size a ≤ S.size a)
    (x : (Rect.unit off size inb).shape.Idx) (y : S.Idx) (hy : ∀ a, (y a).val = off a + (x a).val) :
    X ((Rect.unit off size inb).idx x) = X y :=
  congrArg X (funext fun a => Fin.ext (by
    show off a + 1 * (x a).val = (y a).val
    rw [hy a, Nat.one_mul]))

theorem zeros2 : (![0, 0] : Fin 2 → ℕ) = fun _ => 0 := funext fun a => by fin_cases a <;> rfl

/-- The squashed logits of entry (bb, n, k) of a point's block, from the point's input blocks. -/
def zb (x0 : Vec Ideal S2x1024x1024 .f32) (x1 : Vec Ideal S2x1x768 .f32) (x2 : Vec Ideal S1024x256 .bf16)
    (x3 : Vec Ideal S1x256 .f32) (x4 : Vec Ideal S768x256 .bf16) (bb : Fin 2) (n : Fin 1024) (k : Fin 256) : EReal :=
  Ideal.tanh ((∑ c : Fin 1024, x0 (ix3 bb n c) * x2 (ix2 c k) + x3 (ix2 0 k)) + ∑ q : Fin 768, x1 (ix3 bb 0 q) * x4 (ix2 q k))

/-- Sample 0's piece at (0, n, k). -/
theorem first_piece_apply (x0 : Vec Ideal S2x1024x1024 .f32) (x1 : Vec Ideal S2x1x768 .f32) (x2 : Vec Ideal S1024x256 .bf16)
    (x3 : Vec Ideal S1x256 .f32) (x4 : Vec Ideal S768x256 .bf16) (n : Fin 1024) (k : Fin 256) :
    k0_pay5 (F := Ideal) (View.ld x2 r0_0) (View.ld x4 r0_1) (View.ld x3 r0_2) (View.ld x0 r0_3) (View.ld x1 r0_4) (ix3 0 n k)
      = Ideal.div (Ideal.exp (zb x0 x1 x2 x3 x4 0 n k)) (∑ j : Fin 256, Ideal.exp (zb x0 x1 x2 x3 x4 0 n j)) := by
  have hx : ∀ (n c : Fin 1024), View.ld x0 r0_3 (ix3 0 n c) = x0 (ix3 0 n c) := fun n c =>
    ld_unit_apply x0 _ (ix3 0 n c) (ix3 0 n c) fun a => by
      match a with
      | ⟨0, _⟩ => rfl
      | ⟨1, _⟩ => show n.val = 0 + n.val; omega
      | ⟨2, _⟩ => show c.val = 0 + c.val; omega
  have hy : ∀ q : Fin 768, View.ld x1 r0_4 (ix3 0 0 q) = x1 (ix3 0 0 q) := fun q =>
    ld_unit_apply x1 _ (ix3 0 0 q) (ix3 0 0 q) fun a => by
      match a with
      | ⟨0, _⟩ => rfl
      | ⟨1, _⟩ => rfl
      | ⟨2, _⟩ => show q.val = 0 + q.val; omega
  rw [BodyValue.first_payload_eq, BodyValue.sample_apply, View.ld_unit_zero (S := S1024x256) zeros2,
    View.ld_unit_zero (S := S1x256) zeros2, View.ld_unit_zero (S := S768x256) zeros2]
  simp only [hx, hy]
  rfl

/-- Sample 1's piece at (0, n, k). -/
theorem second_piece_apply (x0 : Vec Ideal S2x1024x1024 .f32) (x1 : Vec Ideal S2x1x768 .f32) (x2 : Vec Ideal S1024x256 .bf16)
    (x3 : Vec Ideal S1x256 .f32) (x4 : Vec Ideal S768x256 .bf16) (n : Fin 1024) (k : Fin 256) :
    k0_pay1 (F := Ideal) (k0_pay3 (View.ld x4 r0_1)) (k0_pay6 (View.ld x2 r0_0) (View.ld x3 r0_2) (View.ld x0 r0_6)) (View.ld x1 r0_7) (ix3 0 n k)
      = Ideal.div (Ideal.exp (zb x0 x1 x2 x3 x4 1 n k)) (∑ j : Fin 256, Ideal.exp (zb x0 x1 x2 x3 x4 1 n j)) := by
  have hx : ∀ (n c : Fin 1024), View.ld x0 r0_6 (ix3 0 n c) = x0 (ix3 1 n c) := fun n c =>
    ld_unit_apply x0 _ (ix3 0 n c) (ix3 1 n c) fun a => by
      match a with
      | ⟨0, _⟩ => rfl
      | ⟨1, _⟩ => show n.val = 0 + n.val; omega
      | ⟨2, _⟩ => show c.val = 0 + c.val; omega
  have hy : ∀ q : Fin 768, View.ld x1 r0_7 (ix3 0 0 q) = x1 (ix3 1 0 q) := fun q =>
    ld_unit_apply x1 _ (ix3 0 0 q) (ix3 1 0 q) fun a => by
      match a with
      | ⟨0, _⟩ => rfl
      | ⟨1, _⟩ => rfl
      | ⟨2, _⟩ => show q.val = 0 + q.val; omega
  rw [BodyValue.second_payload_eq, BodyValue.sample_apply, View.ld_unit_zero (S := S1024x256) zeros2,
    View.ld_unit_zero (S := S1x256) zeros2, View.ld_unit_zero (S := S768x256) zeros2]
  simp only [hx, hy]
  rfl

/-- Two pieces, rows [0,1) stored first and rows [1,2) stored last, read at (bb, n, k): the piece of row bb at (0, n, k). -/
theorem two_pieces_apply (p1 p0 : Vec Ideal S1x1024x256 .f32) (bb : Fin 2) (n : Fin 1024) (k : Fin 256) :
    View.canon ([⟨r0_8, p1⟩, ⟨r0_5, p0⟩] : List (View.Piece (Elt Ideal) S2x1024x256 .f32)) (ix3 bb n k)
      = if bb = 0 then p0 (ix3 0 n k) else p1 (ix3 0 n k) := by
  have hbb : bb = 0 ∨ bb = 1 := by
    rcases bb with ⟨v, hv⟩
    rcases v with _ | _ | v
    · exact Or.inl rfl
    · exact Or.inr rfl
    · omega
  rcases hbb with rfl | rfl
  · rw [if_pos rfl]
    have ha : ((ix3 (0 : Fin 2) n k : S2x1024x256.Idx) (0 : Fin 3)).val < (![1, 0, 0] : Fin 3 → ℕ) (0 : Fin 3) := by
      show (0 : ℕ) < 1; exact Nat.one_pos
    refine (View.canon_cons_unit_of_off (Val := Elt Ideal) (s := S2x1024x256) inb_S2x1024x256_S1x1024x256_1_0_0 p1
      ([⟨r0_5, p0⟩] : List (View.Piece (Elt Ideal) S2x1024x256 .f32)) (ix3 (0 : Fin 2) n k) (0 : Fin 3) (Or.inl ha)).trans ?_
    refine View.canon_cons_unit_of_pos (Val := Elt Ideal) (s := S2x1024x256) inb_S2x1024x256_S1x1024x256_0_0_0 p0
      ([] : List (View.Piece (Elt Ideal) S2x1024x256 .f32)) (ix3 (0 : Fin 2) n k) (ix3 (0 : Fin 1) n k) fun a => ?_
    match a with
    | ⟨0, _⟩ => rfl
    | ⟨1, _⟩ => show n.val = 0 + n.val; omega
    | ⟨2, _⟩ => show k.val = 0 + k.val; omega
  · rw [if_neg (by decide)]
    refine View.canon_cons_unit_of_pos (Val := Elt Ideal) (s := S2x1024x256) inb_S2x1024x256_S1x1024x256_1_0_0 p1
      ([⟨r0_5, p0⟩] : List (View.Piece (Elt Ideal) S2x1024x256 .f32)) (ix3 (1 : Fin 2) n k) (ix3 (0 : Fin 1) n k) fun a => ?_
    match a with
    | ⟨0, _⟩ => rfl
    | ⟨1, _⟩ => show n.val = 0 + n.val; omega
    | ⟨2, _⟩ => show k.val = 0 + k.val; omega

/-- The block a point leaves, at (bb, n, k). -/
theorem block_apply (x0 : Vec Ideal S2x1024x1024 .f32) (x1 : Vec Ideal S2x1x768 .f32) (x2 : Vec Ideal S1024x256 .bf16)
    (x3 : Vec Ideal S1x256 .f32) (x4 : Vec Ideal S768x256 .bf16) (bb : Fin 2) (n : Fin 1024) (k : Fin 256) :
    out0_5 (F := Ideal) x0 x1 x2 x3 x4 (ix3 bb n k)
      = Ideal.div (Ideal.exp (zb x0 x1 x2 x3 x4 bb n k)) (∑ j : Fin 256, Ideal.exp (zb x0 x1 x2 x3 x4 bb n j)) := by
  unfold out0_5
  refine (two_pieces_apply _ _ bb n k).trans ?_
  by_cases hb : bb = 0
  · subst hb
    rw [if_pos rfl]
    exact first_piece_apply x0 x1 x2 x3 x4 n k
  · have h1 : bb = 1 := by
      rcases bb with ⟨v, hv⟩
      rcases v with _ | _ | v
      · exact absurd rfl hb
      · rfl
      · omega
    subst h1
    rw [if_neg hb]
    exact second_piece_apply x0 x1 x2 x3 x4 n k

end Cert.KernelIdeal.BlockValue

end
-- ==== Proof.Spec.lean ====
/-
  The function both programs compute, on the extended reals.

  For a sample s, a position n and an output channel k,

      z (s, n, k) = tanh ((Σ c, x (s, n, c) · W (k, c) + b k) + Σ q, y (s, q) · Wy (k, q)),

  the channel affine map of the position plus the sample's projected conditioning vector, squashed; and the attention
  weights are the softmax of z along k:

      attn (s, n, k) = exp (z (s, n, k)) / Σ j, exp (z (s, n, j)).

  Both programs return attn with the sample and position axes merged into one of 64 · 1024 rows.
-/
import Idealize.ShloMosaic.PureOps.Ideal
import Idealize.ShloMosaic.Lib.ValueIdx

noncomputable section

open scoped BigOperators

namespace Cert.Spec

open Idealize.ShloMosaic Idealize.ShloMosaic.ValueIdx

/-- The squashed logits. -/
def z (x : (⟨3, ![64, 1024, 1024]⟩ : Shape).Idx → EReal) (y : (⟨2, ![64, 768]⟩ : Shape).Idx → EReal)
    (W : (⟨2, ![256, 1024]⟩ : Shape).Idx → EReal) (b : (⟨1, ![256]⟩ : Shape).Idx → EReal)
    (Wy : (⟨2, ![256, 768]⟩ : Shape).Idx → EReal) (s : Fin 64) (n : Fin 1024) (k : Fin 256) : EReal :=
  Ideal.tanh ((∑ c : Fin 1024, x (ix3 s n c) * W (ix2 k c) + b (ix1 k)) + ∑ q : Fin 768, y (ix2 s q) * Wy (ix2 k q))

/-- The attention weights at given coordinates. -/
def attnAt (x : (⟨3, ![64, 1024, 1024]⟩ : Shape).Idx → EReal) (y : (⟨2, ![64, 768]⟩ : Shape).Idx → EReal)
    (W : (⟨2, ![256, 1024]⟩ : Shape).Idx → EReal) (b : (⟨1, ![256]⟩ : Shape).Idx → EReal)
    (Wy : (⟨2, ![256, 768]⟩ : Shape).Idx → EReal) (s : Fin 64) (n : Fin 1024) (k : Fin 256) : EReal :=
  Ideal.div (Ideal.exp (z x y W b Wy s n k)) (∑ j : Fin 256, Ideal.exp (z x y W b Wy s n j))

/-- The attention weights as a [64,1024,256] array. -/
def attn (x : (⟨3, ![64, 1024, 1024]⟩ : Shape).Idx → EReal) (y : (⟨2, ![64, 768]⟩ : Shape).Idx → EReal)
    (W : (⟨2, ![256, 1024]⟩ : Shape).Idx → EReal) (b : (⟨1, ![256]⟩ : Shape).Idx → EReal)
    (Wy : (⟨2, ![256, 768]⟩ : Shape).Idx → EReal) : (⟨3, ![64, 1024, 256]⟩ : Shape).Idx → EReal :=
  fun i => attnAt x y W b Wy (i 0) (i 1) (i 2)

theorem attn_apply (x : (⟨3, ![64, 1024, 1024]⟩ : Shape).Idx → EReal) (y : (⟨2, ![64, 768]⟩ : Shape).Idx → EReal)
    (W : (⟨2, ![256, 1024]⟩ : Shape).Idx → EReal) (b : (⟨1, ![256]⟩ : Shape).Idx → EReal)
    (Wy : (⟨2, ![256, 768]⟩ : Shape).Idx → EReal) (s : Fin 64) (n : Fin 1024) (k : Fin 256) :
    attn x y W b Wy (ix3 s n k) = attnAt x y W b Wy s n k := rfl

end Cert.Spec

end
-- ==== Proof.ArrayValue.lean ====
/-
  From blocks to the whole array: after the kernel's run the output array holds the attention weights of the
  specification, and the program's result is that array with its two leading axes merged.

  Grid point t (of 32) handles samples 2t and 2t + 1. Its x block is rows [2t, 2t + 2) of x; its y block the same rows of
  y (viewed [64,1,768]); the transposed weights and the bias row are single blocks every point sees whole. The host lines
  before the region only re-lay the arguments — W_chᵀ (c, k) = W_ch (k, c), W_yᵀ (q, k) = W_y (k, q), the bias as a
  [1,256] row, y as [64,1,768] — and a change of float format is the identity on the extended reals. So entry (bb, n, k) of
  what point t writes back is the specification's attention weight at (2t + bb, n, k); the 32 blocks tile the [64,1024,256]
  array (the block covering sample s is that of point s / 2); and the host line after the region reshapes it to
  [65536,256].
-/
import proofs.«135833_j47682726920245_2_alg».proof.Proof.Gen.KernelIdeal.Frame
import proofs.«135833_j47682726920245_2_alg».proof.Proof.BlockValue
import proofs.«135833_j47682726920245_2_alg».proof.Proof.Spec
import Idealize.ShloMosaic.Lib.Pipeline.Value
import Idealize.ShloMosaic.Lib.StableHlo.Run

noncomputable section

open scoped BigOperators

namespace Cert.KernelIdeal.ArrayValue

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ) (ρ : Dev nD → PrngReg)

/-! ## What the region finds in the arrays the host lines before it wrote -/

/-- The transposed channel weights. -/
theorem found_wch (c : Dev nD) : (V m c main_v1 : S1024x256.Idx → EReal)
    = (truncf (F := Ideal) .bf16 (transpose S1024x256 [1, 0] (m ((c : Thread nD τ).loc main_arg2)) transposes_S256x1024_S1024x256_1_0) bitsLt_bf16_f32 : FVec Ideal S1024x256 .bf16) := by
  show StableHlo.after hostOps0 (fun b => m (c, b)) (Proc.devRef .tc main_v1) = _
  after_results <;> rfl

/-- The transposed conditioning weights. -/
theorem found_wy (c : Dev nD) : (V m c main_v3 : S768x256.Idx → EReal)
    = (truncf (F := Ideal) .bf16 (transpose S768x256 [1, 0] (m ((c : Thread nD τ).loc main_arg4)) transposes_S256x768_S768x256_1_0) bitsLt_bf16_f32 : FVec Ideal S768x256 .bf16) := by
  show StableHlo.after hostOps0 (fun b => m (c, b)) (Proc.devRef .tc main_v3) = _
  after_results <;> rfl

/-- The bias as a row. -/
theorem found_bias (c : Dev nD) : (V m c main_v4 : S1x256.Idx → EReal)
    = shapeCast S1x256 (m ((c : Thread nD τ).loc main_arg3)) shapeCasts_S256_S1x256 := by
  show StableHlo.after hostOps0 (fun b => m (c, b)) (Proc.devRef .tc main_v4) = _
  after_results <;> rfl

/-- The conditioning vectors with a unit middle axis. -/
theorem found_y (c : Dev nD) : (V m c main_v5 : S64x1x768.Idx → EReal)
    = shapeCast S64x1x768 (m ((c : Thread nD τ).loc main_arg1)) shapeCasts_S64x768_S64x1x768 := by
  show StableHlo.after hostOps0 (fun b => m (c, b)) (Proc.devRef .tc main_v5) = _
  after_results <;> rfl

theorem found_wch_apply (c : Dev nD) (cc : Fin 1024) (k : Fin 256) :
    (V m c main_v1 : S1024x256.Idx → EReal) (ix2 cc k) = (m ((c : Thread nD τ).loc main_arg2) : S256x1024.Idx → EReal) (ix2 k cc) := by
  rw [found_wch]
  exact transpose_apply [1, 0] _ transposes_S256x1024_S1024x256_1_0 (ix2 cc k) (ix2 k cc) fun b => by
    match b with
    | ⟨0, _⟩ => rfl
    | ⟨1, _⟩ => rfl

theorem found_wy_apply (c : Dev nD) (q : Fin 768) (k : Fin 256) :
    (V m c main_v3 : S768x256.Idx → EReal) (ix2 q k) = (m ((c : Thread nD τ).loc main_arg4) : S256x768.Idx → EReal) (ix2 k q) := by
  rw [found_wy]
  exact transpose_apply [1, 0] _ transposes_S256x768_S768x256_1_0 (ix2 q k) (ix2 k q) fun b => by
    match b with
    | ⟨0, _⟩ => rfl
    | ⟨1, _⟩ => rfl

theorem found_bias_apply (c : Dev nD) (u : Fin 1) (k : Fin 256) :
    (V m c main_v4 : S1x256.Idx → EReal) (ix2 u k) = (m ((c : Thread nD τ).loc main_arg3) : S256.Idx → EReal) (ix1 k) := by
  rw [found_bias]
  refine shapeCast_apply _ shapeCasts_S256_S1x256 (ix2 u k) (ix1 k) ?_
  rw [Shape.rowMajor_val_two, Shape.rowMajor_val_one]
  show k.val = u.val * 256 + k.val
  have := u.isLt; omega

theorem found_y_apply (c : Dev nD) (s : Fin 64) (u : Fin 1) (q : Fin 768) :
    (V m c main_v5 : S64x1x768.Idx → EReal) (ix3 s u q) = (m ((c : Thread nD τ).loc main_arg1) : S64x768.Idx → EReal) (ix2 s q) := by
  rw [found_y]
  refine shapeCast_apply _ shapeCasts_S64x768_S64x1x768 (ix3 s u q) (ix2 s q) ?_
  rw [Shape.rowMajor_val_two, Shape.rowMajor_val_three]
  show s.val * 768 + q.val = (s.val * 1 + u.val) * 768 + q.val
  have := u.isLt; omega

/-! ## The blocks of a point -/

/-- The printed index maps over the grid: point t's x, y and output blocks are block t along the sample axis, the three
    resident operands block 0. -/
theorem index_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 3) = t.val ∧ win0_5.index t (1 : Fin 3) = 0 ∧ win0_5.index t (2 : Fin 3) = 0 :=
  (by decide +kernel : ∀ t : Fin grid0.N, _)

/-- A grid point is below 32. -/
theorem point_lt (t : Fin cfg0.N) : t.val < 32 := lt_of_lt_of_eq t.isLt N_0

/-- The sample that row bb of point t's blocks is. -/
def sampleOf (t : Fin cfg0.N) (bb : Fin 2) : Fin 64 := ⟨2 * t.val + bb.val, by have := point_lt t; have := bb.isLt; omega⟩

theorem x_block_apply (c : Dev nD) (t : Fin cfg0.N) (bb : Fin 2) (n cc : Fin 1024) :
    iblk m c 0 t (ix3 bb n cc) = (m ((c : Thread nD τ).loc main_arg0) : S64x1024x1024.Idx → EReal) (ix3 (sampleOf t bb) n cc) := by
  show V m c main_arg0 (((cfg0.win 0).blk t).view.emb (ix3 bb n cc)) = _
  rw [V_main_arg0]
  obtain ⟨e0, e1, e2, -⟩ := index_facts t
  refine congrArg _ (funext fun a => Fin.ext ?_)
  match a with
  | ⟨0, _⟩ => show win0_0.index t (0 : Fin 3) * 2 + 1 * bb.val = 2 * t.val + bb.val; omega
  | ⟨1, _⟩ => show win0_0.index t (1 : Fin 3) * 1024 + 1 * n.val = n.val; omega
  | ⟨2, _⟩ => show win0_0.index t (2 : Fin 3) * 1024 + 1 * cc.val = cc.val; omega

theorem y_block_apply (c : Dev nD) (t : Fin cfg0.N) (bb : Fin 2) (u : Fin 1) (q : Fin 768) :
    iblk m c 1 t (ix3 bb u q) = (m ((c : Thread nD τ).loc main_arg1) : S64x768.Idx → EReal) (ix2 (sampleOf t bb) q) := by
  show V m c main_v5 (((cfg0.win 1).blk t).view.emb (ix3 bb u q)) = _
  obtain ⟨-, -, -, e0, e1, e2, -⟩ := index_facts t
  have hi : ((cfg0.win 1).blk t).view.emb (ix3 bb u q) = ix3 (sampleOf t bb) (0 : Fin 1) q := by
    funext a; apply Fin.ext
    match a with
    | ⟨0, _⟩ => show win0_1.index t (0 : Fin 3) * 2 + 1 * bb.val = 2 * t.val + bb.val; omega
    | ⟨1, _⟩ => show win0_1.index t (1 : Fin 3) * 1 + 1 * u.val = 0; have := u.isLt; omega
    | ⟨2, _⟩ => show win0_1.index t (2 : Fin 3) * 768 + 1 * q.val = q.val; omega
  rw [hi]
  exact found_y_apply m c (sampleOf t bb) 0 q

theorem wch_block_apply (c : Dev nD) (t : Fin cfg0.N) (cc : Fin 1024) (k : Fin 256) :
    iblk m c 2 t (ix2 cc k) = (m ((c : Thread nD τ).loc main_arg2) : S256x1024.Idx → EReal) (ix2 k cc) := by
  show V m c main_v1 (((cfg0.win 2).blk t).view.emb (ix2 cc k)) = _
  obtain ⟨-, -, -, -, -, -, e0, e1, -⟩ := index_facts t
  have hi : ((cfg0.win 2).blk t).view.emb (ix2 cc k) = ix2 cc k := by
    funext a; apply Fin.ext
    match a with
    | ⟨0, _⟩ => show win0_2.index t (0 : Fin 2) * 1024 + 1 * cc.val = cc.val; omega
    | ⟨1, _⟩ => show win0_2.index t (1 : Fin 2) * 256 + 1 * k.val = k.val; omega
  rw [hi]
  exact found_wch_apply m c cc k

theorem bias_block_apply (c : Dev nD) (t : Fin cfg0.N) (u : Fin 1) (k : Fin 256) :
    iblk m c 3 t (ix2 u k) = (m ((c : Thread nD τ).loc main_arg3) : S256.Idx → EReal) (ix1 k) := by
  show V m c main_v4 (((cfg0.win 3).blk t).view.emb (ix2 u k)) = _
  obtain ⟨-, -, -, -, -, -, -, -, e0, e1, -⟩ := index_facts t
  have hi : ((cfg0.win 3).blk t).view.emb (ix2 u k) = ix2 (0 : Fin 1) k := by
    funext a; apply Fin.ext
    match a with
    | ⟨0, _⟩ => show win0_3.index t (0 : Fin 2) * 1 + 1 * u.val = 0; have := u.isLt; omega
    | ⟨1, _⟩ => show win0_3.index t (1 : Fin 2) * 256 + 1 * k.val = k.val; omega
  rw [hi]
  exact found_bias_apply m c 0 k

theorem wy_block_apply (c : Dev nD) (t : Fin cfg0.N) (q : Fin 768) (k : Fin 256) :
    iblk m c 4 t (ix2 q k) = (m ((c : Thread nD τ).loc main_arg4) : S256x768.Idx → EReal) (ix2 k q) := by
  show V m c main_v3 (((cfg0.win 4).blk t).view.emb (ix2 q k)) = _
  obtain ⟨-, -, -, -, -, -, -, -, -, -, e0, e1, -⟩ := index_facts t
  have hi : ((cfg0.win 4).blk t).view.emb (ix2 q k) = ix2 q k := by
    funext a; apply Fin.ext
    match a with
    | ⟨0, _⟩ => show win0_4.index t (0 : Fin 2) * 768 + 1 * q.val = q.val; omega
    | ⟨1, _⟩ => show win0_4.index t (1 : Fin 2) * 256 + 1 * k.val = k.val; omega
  rw [hi]
  exact found_wy_apply m c q k

/-! ## What a point writes back -/

/-- The attention weights of the specification, of the argument arrays as launched. -/
def attnOf (c : Dev nD) : S64x1024x256.Idx → EReal :=
  Spec.attn (m ((c : Thread nD τ).loc main_arg0)) (m ((c : Thread nD τ).loc main_arg1)) (m ((c : Thread nD τ).loc main_arg2))
    (m ((c : Thread nD τ).loc main_arg3)) (m ((c : Thread nD τ).loc main_arg4))

/-- The squashed logits of entry (bb, n, k) of point t's block are the specification's at sample 2t + bb. -/
theorem point_logits (c : Dev nD) (t : Fin cfg0.N) (bb : Fin 2) (n : Fin 1024) (k : Fin 256) :
    BlockValue.zb (iblk m c 0 t) (iblk m c 1 t) (iblk m c 2 t) (iblk m c 3 t) (iblk m c 4 t) bb n k
      = Spec.z (m ((c : Thread nD τ).loc main_arg0)) (m ((c : Thread nD τ).loc main_arg1)) (m ((c : Thread nD τ).loc main_arg2))
          (m ((c : Thread nD τ).loc main_arg3)) (m ((c : Thread nD τ).loc main_arg4)) (sampleOf t bb) n k := by
  unfold BlockValue.zb Spec.z
  simp only [x_block_apply, y_block_apply, wch_block_apply, bias_block_apply, wy_block_apply]

/-- WHAT POINT t WRITES BACK is block t of the attention weights. -/
theorem flushed_eq (c : Dev nD) (t : Fin cfg0.N) :
    (dats m 0 c).flushed 5 t = ((cfg0.win 5).blk t).view.read (Elt Ideal) (attnOf m c) := by
  show (cfg0.win 5).cut (grid0.coords t) ((dats m 0 c).after 5 t) = _
  rw [after0_5]
  funext y
  obtain ⟨bb, n, k, rfl⟩ : ∃ (bb : Fin 2) (n : Fin 1024) (k : Fin 256), y = ix3 bb n k := ⟨y 0, y 1, y 2, eq_ix3 y⟩
  show out0_5 (iblk m c 0 t) (iblk m c 1 t) (iblk m c 2 t) (iblk m c 3 t) (iblk m c 4 t) (ix3 bb n k)
    = attnOf m c (((cfg0.win 5).blk t).view.emb (ix3 bb n k))
  obtain ⟨-, -, -, -, -, -, -, -, -, -, -, -, e0, e1, e2⟩ := index_facts t
  have hi : ((cfg0.win 5).blk t).view.emb (ix3 bb n k) = ix3 (sampleOf t bb) n k := by
    funext a; apply Fin.ext
    match a with
    | ⟨0, _⟩ => show win0_5.index t (0 : Fin 3) * 2 + 1 * bb.val = 2 * t.val + bb.val; omega
    | ⟨1, _⟩ => show win0_5.index t (1 : Fin 3) * 1024 + 1 * n.val = n.val; omega
    | ⟨2, _⟩ => show win0_5.index t (2 : Fin 3) * 256 + 1 * k.val = k.val; omega
  rw [hi]
  refine (BlockValue.block_apply _ _ _ _ _ bb n k).trans ?_
  unfold attnOf
  rw [Spec.attn_apply]
  unfold Spec.attnAt
  simp only [point_logits]

/-! ## The cover, and the array after the run -/

/-- An index of the array is in point t's block iff each coordinate is in the block's range on its axis. -/
theorem mem_blk (t : Fin cfg0.N) (i : S64x1024x256.Idx) :
    i ∈ ((cfg0.win 5).blk t).view.set ↔ ∀ a : Fin 3, win0_5.index t a * S2x1024x256.size a ≤ (i a).val ∧ (i a).val < win0_5.index t a * S2x1024x256.size a + S2x1024x256.size a := by
  show i ∈ ((View.whole main_v6).slice (win0_5.rect t)).set ↔ _
  rw [View.set_slice_whole, Rect.mem_set_unit]
  exact Iff.rfl

/-- Every index of the output array is in the block of the point its sample belongs to. -/
theorem cover (i : S64x1024x256.Idx) : ∃ t : Fin cfg0.N, (cfg0.win 5).flush t = true ∧ i ∈ ((cfg0.win 5).blk t).view.set := by
  have h0 : (i 0).val < 64 := (i 0).isLt
  have h1 : (i 1).val < 1024 := (i 1).isLt
  have h2 : (i 2).val < 256 := (i 2).isLt
  have hN : grid0.N = 32 := N_0
  let t : Fin cfg0.N := ⟨(i 0).val / 2, by show (i 0).val / 2 < grid0.N; omega⟩
  obtain ⟨-, -, -, -, -, -, -, -, -, -, -, -, e0, e1, e2⟩ := index_facts t
  have ht : t.val = (i 0).val / 2 := rfl
  refine ⟨t, flush0_5 t, ?_⟩
  rw [mem_blk]
  intro a
  match a with
  | ⟨0, _⟩ => show win0_5.index t (0 : Fin 3) * 2 ≤ (i 0).val ∧ (i 0).val < win0_5.index t (0 : Fin 3) * 2 + 2; omega
  | ⟨1, _⟩ => show win0_5.index t (1 : Fin 3) * 1024 ≤ (i 1).val ∧ (i 1).val < win0_5.index t (1 : Fin 3) * 1024 + 1024; omega
  | ⟨2, _⟩ => show win0_5.index t (2 : Fin 3) * 256 ≤ (i 2).val ∧ (i 2).val < win0_5.index t (2 : Fin 3) * 256 + 256; omega

/-- THE OUTPUT ARRAY after the run: the attention weights. -/
theorem final (c : Dev nD) : (dats m 0 c).arrAt 5 cfg0.N = attnOf m c :=
  (dats m 0 c).arrAt_eq_of_cover 5 (attnOf m c) (fun t _ => flushed_eq m c t) cover

/-! ## The run, read -/

/-- The program's result: the attention weights with the sample and position axes merged. -/
def result (c : Dev nD) : S65536x256.Idx → EReal :=
  shapeCast S65536x256 (attnOf m c) shapeCasts_S64x1024x256_S65536x256

/-- What the host line after the region leaves in the result buffer. -/
theorem tail_result (c : Dev nD) :
    Pipeline.afterTail₀ cfgs (dats m) 0 (V0 m) [hostOps1] c main_v7 = result m c := by
  unfold Pipeline.afterTail₀
  show StableHlo.after hostOps1 _ (Proc.devRef .tc main_v7) = _
  after_results
  unfold result
  exact congrArg (fun A => shapeCast S65536x256 A shapeCasts_S64x1024x256_S65536x256)
    ((Pipeline.withArrays_arr spec0 launch0.win.arr_inj c _ _ 5).trans (final m c))

/-- Every weakly fair execution of the idealized kernel terminates with the result buffer at the merged attention
    weights of the arguments as launched, and the arguments unchanged. -/
theorem run : θ_run defs (onTc (τ := τ) (main (F := Ideal))) ⟨m, fun _ => 0, ρ⟩ fun r => ∀ c : Dev nD,
      r.2.mem ((c.tc : Thread nD τ).loc main_v7) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v7 (Pipeline.mem_restRefs_of main_v7 (by decide) (by decide))).trans (tail_result m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.ArrayValue

end
-- ==== Proof.LibRealValued.lean ====
/-
  Real-valued extended reals. A quantity is real-valued when it is the image of a real number, that is,
  neither of the two infinities. The arithmetic of the extended reals restricted to real-valued
  quantities is the arithmetic of the real numbers, and the exponential and the division by a nonzero
  real keep a real-valued argument real-valued.
-/
import Mathlib
import Idealize.ShloMosaic.PureOps.Ideal
import Idealize.ShloMosaic.PureOps.Ideal.Laws

namespace Cert.RealValued

open Idealize.ShloMosaic

/-- An extended real is real-valued when it is (the image of) a real number. -/
def IsReal (x : EReal) : Prop := ∃ r : ℝ, x = (r : EReal)

/-- The image of a real number is real-valued. -/
theorem IsReal.coe (r : ℝ) : IsReal (r : EReal) := ⟨r, rfl⟩

/-- Zero is real-valued. -/
theorem IsReal.zero : IsReal (0 : EReal) := ⟨0, EReal.coe_zero.symm⟩

/-- One is real-valued. -/
theorem IsReal.one : IsReal (1 : EReal) := ⟨1, EReal.coe_one.symm⟩

/-- A real-valued quantity is neither infinity. -/
theorem IsReal.ne_top {x : EReal} (hx : IsReal x) : x ≠ ⊤ := by
  obtain ⟨a, rfl⟩ := hx; exact EReal.coe_ne_top a

/-- A real-valued quantity is neither infinity. -/
theorem IsReal.ne_bot {x : EReal} (hx : IsReal x) : x ≠ ⊥ := by
  obtain ⟨a, rfl⟩ := hx; exact EReal.coe_ne_bot a

/-- The sum of two real-valued quantities is real-valued. -/
theorem IsReal.add {x y : EReal} (hx : IsReal x) (hy : IsReal y) : IsReal (x + y) := by
  obtain ⟨a, rfl⟩ := hx; obtain ⟨b, rfl⟩ := hy
  exact ⟨a + b, (EReal.coe_add a b).symm⟩

/-- The difference of two real-valued quantities is real-valued. -/
theorem IsReal.sub {x y : EReal} (hx : IsReal x) (hy : IsReal y) : IsReal (x - y) := by
  obtain ⟨a, rfl⟩ := hx; obtain ⟨b, rfl⟩ := hy
  exact ⟨a - b, (EReal.coe_sub a b).symm⟩

/-- The product of two real-valued quantities is real-valued. -/
theorem IsReal.mul {x y : EReal} (hx : IsReal x) (hy : IsReal y) : IsReal (x * y) := by
  obtain ⟨a, rfl⟩ := hx; obtain ⟨b, rfl⟩ := hy
  exact ⟨a * b, (EReal.coe_mul a b).symm⟩

/-- The negation of a real-valued quantity is real-valued. -/
theorem IsReal.neg {x : EReal} (hx : IsReal x) : IsReal (-x) := by
  obtain ⟨a, rfl⟩ := hx
  exact ⟨-a, (EReal.coe_neg a).symm⟩

/-- The maximum of two real numbers, taken in the extended reals, is the image of their maximum. -/
theorem coe_max (a b : ℝ) : max (a : EReal) (b : EReal) = ((max a b : ℝ) : EReal) := by
  rcases le_total a b with h | h
  · rw [max_eq_right h, max_eq_right (EReal.coe_le_coe_iff.2 h)]
  · rw [max_eq_left h, max_eq_left (EReal.coe_le_coe_iff.2 h)]

/-- The maximum of two real-valued quantities is real-valued. -/
theorem IsReal.max {x y : EReal} (hx : IsReal x) (hy : IsReal y) : IsReal (max x y) := by
  obtain ⟨a, rfl⟩ := hx; obtain ⟨b, rfl⟩ := hy
  exact ⟨Max.max a b, coe_max a b⟩

/-- A finite sum of real-valued quantities is real-valued. -/
theorem IsReal.sum {ι : Type*} (s : Finset ι) (f : ι → EReal) (h : ∀ i ∈ s, IsReal (f i)) :
    IsReal (∑ i ∈ s, f i) := by
  classical
  induction s using Finset.induction_on with
  | empty => simpa using IsReal.zero
  | insert a s ha ih =>
    rw [Finset.sum_insert ha]
    exact (h a (Finset.mem_insert_self a s)).add
      (ih fun i hi => h i (Finset.mem_insert_of_mem hi))

/-- The coercion of the reals into the extended reals commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

/-- The exponential of a real-valued quantity is a positive real number. -/
theorem exp_coe_pos (r : ℝ) : ∃ e : ℝ, 0 < e ∧ Ideal.exp (r : EReal) = (e : EReal) :=
  ⟨Real.exp r, Real.exp_pos r, Ideal.exp_coe r⟩

/-- The exponential of a real-valued quantity is real-valued. -/
theorem isReal_exp {x : EReal} (h : IsReal x) : IsReal (Ideal.exp x) := by
  obtain ⟨a, rfl⟩ := h
  exact ⟨Real.exp a, Ideal.exp_coe a⟩

/-- A real-valued quantity divided by a nonzero real number is real-valued. -/
theorem isReal_div_coe {x : EReal} (h : IsReal x) {y : ℝ} (hy : y ≠ 0) :
    IsReal (Ideal.div x (y : EReal)) := by
  rw [Ideal.div_coe hy x]
  exact h.mul (IsReal.coe _)

end Cert.RealValued
-- ==== Proof.SoftmaxLaw.lean ====
/-
  The softmax of a row of real numbers, written two ways on the extended reals.

  A row z of extended reals whose entries are all real numbers has a real maximum M (the running maximum started at
  -∞ over a non-empty row). For real z k and real M,  exp (z k - M) = exp (z k) / exp M,  so in

      exp (z k - M) / (0 + Σ j, exp (z j - M))      and      exp (z k) / Σ j, exp (z j)

  the common positive factor 1 / exp M cancels: both denominators are positive real numbers, the quotient by a nonzero
  real is the real quotient, and the two sides are the same real number. The hyperbolic tangent of ANY extended real is
  a real number (-1 at -∞, 1 at +∞), which is where the rows of this certificate come from.
-/
import Idealize.ShloMosaic.PureOps.Ideal
import proofs.«135833_j47682726920245_2_alg».proof.Proof.LibRealValued

noncomputable section

open scoped BigOperators

namespace Cert.SoftmaxLaw

open Idealize.ShloMosaic Cert.RealValued

/-- The hyperbolic tangent of every extended real is a real number. -/
theorem tanh_isReal (x : EReal) : IsReal (Ideal.tanh x) := by
  induction x using EReal.rec with
  | bot => exact ⟨-1, by rw [Ideal.tanh_bot, EReal.coe_neg, EReal.coe_one]⟩
  | top => exact ⟨1, by rw [Ideal.tanh_top, EReal.coe_one]⟩
  | coe r => exact ⟨Real.tanh r, rfl⟩

/-- The running maximum, started at -∞, over a non-empty finite family of real-valued entries is real-valued. -/
theorem isReal_fold_max {n : ℕ} (hn : 0 < n) (z : Fin n → EReal) (hz : ∀ j, IsReal (z j)) :
    IsReal ((Finset.univ : Finset (Fin n)).fold max (⊥ : EReal) z) := by
  have hlt : (Finset.univ : Finset (Fin n)).fold max (⊥ : EReal) z < ⊤ :=
    (Finset.fold_max_lt _).2 ⟨bot_lt_top, fun j _ => lt_top_iff_ne_top.2 (hz j).ne_top⟩
  have hgt : ⊥ < (Finset.univ : Finset (Fin n)).fold max (⊥ : EReal) z :=
    (Finset.lt_fold_max _).2 (Or.inr ⟨⟨0, hn⟩, Finset.mem_univ _, bot_lt_iff_ne_bot.2 (hz ⟨0, hn⟩).ne_bot⟩)
  exact ⟨_, (EReal.coe_toReal hlt.ne hgt.ne').symm⟩

/-- Over the reals: dividing numerator and denominator of a softmax by exp m changes nothing. -/
theorem real_shift {n : ℕ} (r : Fin n → ℝ) (m : ℝ) (k : Fin n) :
    Real.exp (r k - m) * (1 / ∑ j, Real.exp (r j - m)) = Real.exp (r k) * (1 / ∑ j, Real.exp (r j)) := by
  have hS : 0 < ∑ j, Real.exp (r j) := Finset.sum_pos' (fun j _ => (Real.exp_pos _).le) ⟨k, Finset.mem_univ _, Real.exp_pos _⟩
  have hm : Real.exp m ≠ 0 := (Real.exp_pos m).ne'
  have e : ∑ j, Real.exp (r j - m) = (∑ j, Real.exp (r j)) / Real.exp m := by
    rw [Finset.sum_div]; exact Finset.sum_congr rfl fun j _ => Real.exp_sub _ _
  rw [e, Real.exp_sub]
  field_simp

/-- The softmax with the row's maximum subtracted first is the softmax without it, on a real-valued row and for ANY
    real-valued shift. -/
theorem shifted_eq {n : ℕ} (z : Fin n → EReal) (hz : ∀ j, IsReal (z j)) (M : EReal) (hM : IsReal M) (k : Fin n) :
    Ideal.div (Ideal.exp (z k - M)) (0 + ∑ j, Ideal.exp (z j - M))
      = Ideal.div (Ideal.exp (z k)) (∑ j, Ideal.exp (z j)) := by
  obtain ⟨m, rfl⟩ := hM
  choose r hr using hz
  have hzr : z = fun j => ((r j : ℝ) : EReal) := funext hr
  subst hzr
  have hS : 0 < ∑ j, Real.exp (r j) := Finset.sum_pos' (fun j _ => (Real.exp_pos _).le) ⟨k, Finset.mem_univ _, Real.exp_pos _⟩
  have hS' : 0 < ∑ j, Real.exp (r j - m) := Finset.sum_pos' (fun j _ => (Real.exp_pos _).le) ⟨k, Finset.mem_univ _, Real.exp_pos _⟩
  simp only [← EReal.coe_sub, Ideal.exp_coe, ← coe_sum, zero_add]
  rw [Ideal.div_coe hS.ne', Ideal.div_coe hS'.ne', ← EReal.coe_mul, ← EReal.coe_mul, real_shift]

end Cert.SoftmaxLaw

end
-- ==== Proof.RefValue.lean ====
/-
  The reference computes the attention weights of the specification.

  Read one operation at a time, the reference forms z = tanh (x·Wᵀ + b + y·Wyᵀ) entry by entry, then the softmax of z
  along the last axis in its numerically guarded form: M = max (-∞, max_j z_j) is subtracted before the exponential.
  Every z is a real number (a hyperbolic tangent), so M is a real number and the guarded form equals the plain one.
-/
import proofs.«135833_j47682726920245_2_alg».proof.Proof.Gen.ReferenceIdeal.Read
import Idealize.ShloMosaic.PureOps.Reduce
import proofs.«135833_j47682726920245_2_alg».proof.Proof.Spec
import proofs.«135833_j47682726920245_2_alg».proof.Proof.SoftmaxLaw

noncomputable section

open scoped BigOperators

namespace Cert.ReferenceIdeal.RefValue

open Cert.ReferenceIdeal Cert.ReferenceIdeal.Gen Cert.ReferenceIdeal.Read Idealize.ShloMosaic Idealize.ShloMosaic.ValueIdx
open Cert.RealValued

/-! ## The operations' index functions at coordinates -/

theorem lidx1 (s : Fin 64) (n : Fin 1024) (k : Fin 256) (c : Fin 1024) : lidx_main_v1 (ix3 s n k) c = ix3 s n c := by
  funext a; match a with | ⟨0, _⟩ => rfl | ⟨1, _⟩ => rfl | ⟨2, _⟩ => rfl
theorem ridx1 (s : Fin 64) (n : Fin 1024) (k : Fin 256) (c : Fin 1024) : ridx_main_v1 (ix3 s n k) c = ix2 k c := by
  funext a; match a with | ⟨0, _⟩ => rfl | ⟨1, _⟩ => rfl
theorem idx3 (s : Fin 64) (n : Fin 1024) (k : Fin 256) : idx_main_v3 (ix3 s n k) = ix3 (0 : Fin 1) (0 : Fin 1) k := by
  funext a; match a with | ⟨0, _⟩ => rfl | ⟨1, _⟩ => rfl | ⟨2, _⟩ => rfl
theorem idx2 (u v : Fin 1) (k : Fin 256) : idx_main_v2 (ix3 u v k) = ix1 k := by
  funext a; match a with | ⟨0, _⟩ => rfl
theorem idx6 (s : Fin 64) (n : Fin 1024) (k : Fin 256) : idx_main_v6 (ix3 s n k) = ix3 s (0 : Fin 1) k := by
  funext a; match a with | ⟨0, _⟩ => rfl | ⟨1, _⟩ => rfl | ⟨2, _⟩ => rfl
theorem idx5 (s : Fin 64) (u : Fin 1) (k : Fin 256) : idx_main_v5 (ix3 s u k) = ix2 s k := by
  funext a; match a with | ⟨0, _⟩ => rfl | ⟨1, _⟩ => rfl
theorem lidx0 (s : Fin 64) (k : Fin 256) (q : Fin 768) : lidx_main_v0 (ix2 s k) q = ix2 s q := by
  funext a; match a with | ⟨0, _⟩ => rfl | ⟨1, _⟩ => rfl
theorem ridx0 (s : Fin 64) (k : Fin 256) (q : Fin 768) : ridx_main_v0 (ix2 s k) q = ix2 k q := by
  funext a; match a with | ⟨0, _⟩ => rfl | ⟨1, _⟩ => rfl
theorem idx13 (s : Fin 64) (n : Fin 1024) (k : Fin 256) : idx_main_v13 (ix3 s n k) = ix3 s n (0 : Fin 1) := by
  funext a; match a with | ⟨0, _⟩ => rfl | ⟨1, _⟩ => rfl | ⟨2, _⟩ => rfl
theorem idx12 (s : Fin 64) (n : Fin 1024) (u : Fin 1) : idx_main_v12 (ix3 s n u) = ix2 s n := by
  funext a; match a with | ⟨0, _⟩ => rfl | ⟨1, _⟩ => rfl
theorem idx18 (s : Fin 64) (n : Fin 1024) (k : Fin 256) : idx_main_v18 (ix3 s n k) = ix3 s n (0 : Fin 1) := by
  funext a; match a with | ⟨0, _⟩ => rfl | ⟨1, _⟩ => rfl | ⟨2, _⟩ => rfl
theorem idx17 (s : Fin 64) (n : Fin 1024) (u : Fin 1) : idx_main_v17 (ix3 s n u) = ix2 s n := by
  funext a; match a with | ⟨0, _⟩ => rfl | ⟨1, _⟩ => rfl
theorem idx16 (s : Fin 64) (n : Fin 1024) (j : Fin 256) : idx_main_v16 (ix2 s n) j = ix3 s n j := by
  funext a; match a with | ⟨0, _⟩ => rfl | ⟨1, _⟩ => rfl | ⟨2, _⟩ => rfl

variable (x0 : (⟨S64x1024x1024, .f32⟩ : BufTy).Contents (Elt Ideal)) (x1 : (⟨S64x768, .f32⟩ : BufTy).Contents (Elt Ideal))
  (x2 : (⟨S256x1024, .f32⟩ : BufTy).Contents (Elt Ideal)) (x3 : (⟨S256, .f32⟩ : BufTy).Contents (Elt Ideal))
  (x4 : (⟨S256x768, .f32⟩ : BufTy).Contents (Elt Ideal))

/-! ## The squashed logits -/

/-- The reference's tanh stage at (s, n, k) is the specification's z. -/
theorem squashed_at (s : Fin 64) (n : Fin 1024) (k : Fin 256) :
    val_main_v8 (F := Ideal) x0 x1 x2 x3 x4 (ix3 s n k) = Spec.z x0 x1 x2 x3 x4 s n k := by
  rw [val_main_v8_apply, val_main_v7_apply, val_main_v4_apply, val_main_v1_apply, val_main_v3_apply, val_main_v2_apply,
    val_main_v6_apply, val_main_v5_apply, val_main_v0_apply]
  simp only [lidx1, ridx1, idx3, idx2, idx6, idx5, lidx0, ridx0]
  rfl

/-- Every entry of the tanh stage is a real number. -/
theorem squashed_isReal (i : S64x1024x256.Idx) : IsReal (val_main_v8 (F := Ideal) x0 x1 x2 x3 x4 i) := by
  rw [val_main_v8_apply]
  exact SoftmaxLaw.tanh_isReal _

/-! ## The row maximum is a real number -/

theorem neg_inf : Ideal.ofBits .f32 0xFF800000#32 = (⊥ : EReal) := by simp [Ideal.ofBits, Ideal.ieee]

/-- The guarded maximum of row (s, n): real-valued. -/
theorem rowmax_isReal (s : Fin 64) (n : Fin 1024) : IsReal (val_main_v11 (F := Ideal) x0 x1 x2 x3 x4 (ix2 s n)) := by
  rw [val_main_v11_apply, val_main_v10_apply, val_main_cst_0_apply]
  unfold val_main_v9
  rw [Host.reduce_eq_fold_single FloatOps.maximumf _ _ reducesTo_S64x1024x256_S64x1024_d2 (by decide) h_S_, val_main_cst_apply]
  show IsReal (max (Ideal.ofBits .f32 0xFF800000#32) (Finset.fold max (Ideal.ofBits .f32 0xFF800000#32) _ _))
  rw [neg_inf, max_eq_right bot_le]
  exact SoftmaxLaw.isReal_fold_max (by decide) _ fun j => squashed_isReal x0 x1 x2 x3 x4 _

/-! ## The reference's quotient is the attention weights -/

theorem ref_is_attn : val_main_v19 (F := Ideal) x0 x1 x2 x3 x4 = Spec.attn x0 x1 x2 x3 x4 := by
  funext i
  obtain ⟨s, n, k, rfl⟩ : ∃ (s : Fin 64) (n : Fin 1024) (k : Fin 256), i = ix3 s n k := ⟨i 0, i 1, i 2, eq_ix3 i⟩
  rw [val_main_v19_apply, val_main_v18_apply, val_main_v17_apply, val_main_v16_apply, val_main_cst_1_apply]
  simp only [val_main_v15_apply, val_main_v14_apply, val_main_v13_apply, val_main_v12_apply, idx13, idx12, idx18, idx17, idx16,
    squashed_at]
  rw [Spec.attn_apply]
  have h0 : FloatOps.ofBits (F := Ideal) .f32 0x00000000#32 = (0 : EReal) := Ideal.ofBits_zero_f32
  rw [h0]
  exact SoftmaxLaw.shifted_eq (fun j => Spec.z x0 x1 x2 x3 x4 s n j) (fun j => SoftmaxLaw.tanh_isReal _) _
    (rowmax_isReal x0 x1 x2 x3 x4 s n) k

end Cert.ReferenceIdeal.RefValue

end
-- ==== Proof.lean ====
/-
  The kernel and its reference compute the same attention weights on the extended reals.

  Both programs take x [64,1024,1024], y [64,768], W_ch [256,1024], b_ch [256], W_y [256,768] and return, as a [65536,256]
  array (sample and position merged), the softmax along k of

      z (s, n, k) = tanh ((Σ c, x (s, n, c) · W_ch (k, c) + b_ch k) + Σ q, y (s, q) · W_y (k, q)).

  The kernel, two samples per grid point, multiplies by the transposed weights (the same sums), and forms
  exp z / Σ exp z directly. The reference subtracts the row's maximum M before the exponential and divides
  exp (z - M) by Σ exp (z - M). A hyperbolic tangent is a real number whatever its argument, so every z is real, M is
  real, exp (z - M) = exp z / exp M, and the positive factor 1 / exp M cancels between numerator and denominator: the two
  quotients are the same real number (SoftmaxLaw). No finiteness of the inputs is needed for this.

  The kernel's side: one sample's block entry by entry (BodyValue), the two stored pieces of a point's block (BlockValue),
  the blocks tiling the output array and the host lines around the region (ArrayValue). The reference's side: its run read
  one operation at a time, and the guarded softmax reduced to the plain one (RefValue). The idealized kernel is the
  kernel's own text read on the extended reals (no rewrite was applied), so there is nothing to preserve.
-/
import proofs.«135833_j47682726920245_2_alg».proof.Defs
import proofs.«135833_j47682726920245_2_alg».proof.Proof.Gen.Kernel
import proofs.«135833_j47682726920245_2_alg».proof.Proof.Gen.Kernel.Skeleton
import proofs.«135833_j47682726920245_2_alg».proof.Proof.Gen.Kernel.Launch
import proofs.«135833_j47682726920245_2_alg».proof.Proof.Gen.Kernel.Points
import proofs.«135833_j47682726920245_2_alg».proof.Proof.Gen.Kernel.Frame
import proofs.«135833_j47682726920245_2_alg».proof.Proof.Gen.KernelIdeal
import proofs.«135833_j47682726920245_2_alg».proof.Proof.Gen.KernelIdeal.Skeleton
import proofs.«135833_j47682726920245_2_alg».proof.Proof.Gen.KernelIdeal.Launch
import proofs.«135833_j47682726920245_2_alg».proof.Proof.Gen.KernelIdeal.Points
import proofs.«135833_j47682726920245_2_alg».proof.Proof.Gen.KernelIdeal.Frame
import proofs.«135833_j47682726920245_2_alg».proof.Proof.Gen.ReferenceIdeal
import proofs.«135833_j47682726920245_2_alg».proof.Proof.Gen.ReferenceIdeal.Run
import proofs.«135833_j47682726920245_2_alg».proof.Proof.Gen.ReferenceIdeal.Read
import proofs.«135833_j47682726920245_2_alg».proof.Proof.Gen.Pre_finite_inputs
import proofs.«135833_j47682726920245_2_alg».proof.Proof.ArrayValue
import proofs.«135833_j47682726920245_2_alg».proof.Proof.RefValue
import Idealize.ShloMosaic.Adequacy
import Idealize.ShloMosaic.Init

noncomputable section

namespace Cert.Proof

open Idealize.ShloMosaic Idealize.SL.Sem

/-- The word-level kernel runs and leaves its arguments as launched. -/
theorem frame_kernel : Cert.frame_Kernel := fun m ρ _ => Cert.Kernel.Gen.frame m ρ

/-- So does the kernel read on the extended reals. -/
theorem frame_kernel_ideal : Cert.frame_KernelIdeal := fun m ρ _ => Cert.KernelIdeal.Gen.frame m ρ

/-- The reference runs and leaves its arguments as launched: its run with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- No rewrite was applied in reading the kernel on the extended reals. -/
theorem preserves : Cert.preserves_Kernel_KernelIdeal := trivial

/-- From memories agreeing on the arguments, both programs end with the merged attention weights of those arguments:
    the kernel by its blocks (ArrayValue.run), the reference by its operations, its guarded softmax being the plain one
    (RefValue.ref_is_attn). -/
theorem algebraic : Cert.algebraic_KernelIdeal_ReferenceIdeal := by
  intro m ρ m' ρ' _ hagree
  refine ⟨_, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v20_eq]
  unfold Cert.ReferenceIdeal.Read.val_main_v20
  rw [Cert.ReferenceIdeal.RefValue.ref_is_attn, (hagree c).1, (hagree c).2.1, (hagree c).2.2.1, (hagree c).2.2.2.1, (hagree c).2.2.2.2]
  rfl

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
